-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S12288x4096 : Shape := ⟨2, ![12288, 4096]⟩
abbrev S12288 : Shape := ⟨1, ![12288]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S12288x4096 .f32) (main_arg2 : FVec F S12288 .f32) (main_arg3 : FVec F S4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4x2048x4096 : Shape := ⟨3, ![4, 2048, 4096]⟩
abbrev S12288x4096 : Shape := ⟨2, ![12288, 4096]⟩
abbrev S12288 : Shape := ⟨1, ![12288]⟩
abbrev S4096 : Shape := ⟨1, ![4096]⟩
abbrev S8192x4096 : Shape := ⟨2, ![8192, 4096]⟩
abbrev S1x4096 : Shape := ⟨2, ![1, 4096]⟩
abbrev S1x12288 : Shape := ⟨2, ![1, 12288]⟩
abbrev S512x4096 : Shape := ⟨2, ![512, 4096]⟩
abbrev S8192x12288 : Shape := ⟨2, ![8192, 12288]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S4x2048x12288 : Shape := ⟨3, ![4, 2048, 12288]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S12288x4096, .f32⟩
  | .hbm, ⟨2, _⟩ => ⟨S12288, .f32⟩
  | .hbm, ⟨3, _⟩ => ⟨S4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S1x4096, .f32⟩
  | .hbm, ⟨8, _⟩ => ⟨S1x12288, .f32⟩
  | .hbm, ⟨9, _⟩ => ⟨S12288x4096, .bf16⟩
  | .hbm, ⟨10, _⟩ => ⟨S8192x12288, .f32⟩
  | .hbm, ⟨11, _⟩ => ⟨S4x2048x12288, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S1024x4096, .bf16⟩
  | .local _ .vmem, ⟨9, _⟩ => ⟨S1024x4096, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![12, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x4096_S8192x4096 : S4x2048x4096.ShapeCasts S8192x4096
  shapeCasts_S4096_S1x4096 : S4096.ShapeCasts S1x4096
  shapeCasts_S12288_S1x12288 : S12288.ShapeCasts S1x12288
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192x12288_S4x2048x12288 : S8192x12288.ShapeCasts S4x2048x12288
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S12288x4096.size a
  hwx0_0 : ∀ i : grid0.Coords, EltTy.bits .f32 = 32 ∨ (Rect.block (s := S12288x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S12288x4096.size a
  hwx0_1 : ∀ i : grid0.Coords, EltTy.bits .bf16 = 32 ∨ (Rect.block (s := S12288x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x4096.size a ≤ S12288x4096.size a
  hwx1_3 : ∀ i : grid1.Coords, EltTy.bits .bf16 = 32 ∨ (Rect.block (s := S12288x4096) S1024x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x12288.size a
  hwx1_4 : ∀ i : grid1.Coords, EltTy.bits .f32 = 32 ∨ (Rect.block (s := S1x12288) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S8192x12288.size a
  hwx1_5 : ∀ i : grid1.Coords, EltTy.bits .f32 = 32 ∨ (Rect.block (s := S8192x12288) S256x1024.size (cc1_transform_5 i) (hinb1_5 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S12288x4096 : Shape := ⟨2, ![12288, 4096]⟩
abbrev S12288 : Shape := ⟨1, ![12288]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x12288 : Shape := ⟨3, ![4, 2048, 12288]⟩
abbrev S1x1x12288 : Shape := ⟨3, ![1, 1, 12288]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S12288x4096, .f32⟩
  | .hbm, ⟨2, _⟩ => ⟨S12288, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x4096, .f32⟩
  | .hbm, ⟨27, _⟩ => ⟨S4x2048x4096, .f32⟩
  | .hbm, ⟨28, _⟩ => ⟨S1x1x4096, .f32⟩
  | .hbm, ⟨29, _⟩ => ⟨S4x2048x4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | .hbm, ⟨34, _⟩ => ⟨S4x2048x12288, .f32⟩
  | .hbm, ⟨35, _⟩ => ⟨S1x1x12288, .f32⟩
  | .hbm, ⟨36, _⟩ => ⟨S4x2048x12288, .f32⟩
  | .hbm, ⟨37, _⟩ => ⟨S4x2048x12288, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S12288_S1x1x12288_2 : S12288.BroadcastsInDim S1x1x12288 (![2] : Fin 1 → Fin S1x1x12288.rank)
  bcast_S1x1x12288_S4x2048x12288_0_1_2 : S1x1x12288.BroadcastsInDim S4x2048x12288 (![0, 1, 2] : Fin 3 → Fin S4x2048x12288.rank)
  dot_S4x2048x4096_S12288x4096_S4x2048x12288_2_1_01_0_n_n_wf : DotDims.WF S4x2048x4096 S12288x4096 S4x2048x12288 [2] [1] [0, 1] [0] [] []

variable [Facts₀]

def dot_S4x2048x4096_S12288x4096_S4x2048x12288_2_1_01_0_n_n : DotDims S4x2048x4096 S12288x4096 S4x2048x12288 where
  lhsContracting := [2]
  rhsContracting := [1]
  lhsNonContracting := [0, 1]
  rhsNonContracting := [0]
  lhsBatch := []
  rhsBatch := []
  wf := dot_S4x2048x4096_S12288x4096_S4x2048x12288_2_1_01_0_n_n_wf

class Facts : Prop extends Facts₀ where

variable [Facts]
-- ==== Proof.LnLinearSpec.lean ====
/-
  Layer normalisation of a row of 4096 entries followed by an affine map, on the extended reals.

  For a row x the mean is (∑ₖ xₖ) / 4096, the centred row is xₖ − mean, the variance is
  (∑ₖ (xₖ − mean)²) / 4096, and the row is rescaled by 1 / √(variance + ε), multiplied entry by entry by a
  gain g and shifted by an offset b.  The output entry for a weight row w and a bias c is
  (∑ₖ normedₖ · wₖ) + c.  The two constants are kept as the f32 words the programs carry: 4096.0 and the
  f32 nearest to 1e-5; no property of either is ever needed, because both programs carry the same words.

  `rowsOut` is this on an [8192, 4096] array of rows against a [12288, 4096] array of weight rows, and
  `result` is the same on the [4, 2048, 4096] array whose rows are numbered (b, s) ↦ 2048·b + s.
-/
import Idealize.ShloMosaic.PureOps.Ideal
import Idealize.ShloMosaic.Lib.ValueIdx

noncomputable section

open scoped BigOperators
open Idealize.ShloMosaic Idealize.ShloMosaic.ValueIdx

namespace LnLinear

/-- The row length 4096, as the f32 word both programs divide by. -/
def rowLen : EReal := Ideal.ofBits .f32 0x45800000#32

/-- The constant added to the variance before the inverse square root: the f32 word nearest to 1e-5. -/
def eps : EReal := Ideal.ofBits .f32 0x3727C5AC#32

/-- The mean of a row. -/
def mean (x : Fin 4096 → EReal) : EReal := Ideal.div (∑ k, x k) rowLen

/-- A row with its mean subtracted. -/
def centred (x : Fin 4096 → EReal) (k : Fin 4096) : EReal := x k - mean x

/-- The mean of the squares of the centred row. -/
def variance (x : Fin 4096 → EReal) : EReal := Ideal.div (∑ k, centred x k * centred x k) rowLen

/-- The rescaling factor 1 / √(variance + ε). -/
def invStd (x : Fin 4096 → EReal) : EReal := Ideal.rsqrt (variance x + eps)

/-- The normalised row: centred, rescaled, multiplied by the gain and shifted by the offset. -/
def normed (x g b : Fin 4096 → EReal) (k : Fin 4096) : EReal := centred x k * invStd x * g k + b k

/-- One output entry: the normalised row against one weight row, plus that row's bias. -/
def affineOut (x g b w : Fin 4096 → EReal) (c : EReal) : EReal := (∑ k, normed x g b k * w k) + c

/-- Entry (r, j) of the [8192, 12288] output: row r of `X` normalised with gain and offset given as
    [1, 4096] rows, against weight row j, plus entry j of the [1, 12288] bias row. -/
def rowsOutAt (X : (⟨2, ![8192, 4096]⟩ : Shape).Idx → EReal) (g b : (⟨2, ![1, 4096]⟩ : Shape).Idx → EReal)
    (W : (⟨2, ![12288, 4096]⟩ : Shape).Idx → EReal) (c : (⟨2, ![1, 12288]⟩ : Shape).Idx → EReal)
    (r : Fin 8192) (j : Fin 12288) : EReal :=
  affineOut (fun k => X (ix2 r k)) (fun k => g (ix2 (0 : Fin 1) k)) (fun k => b (ix2 (0 : Fin 1) k))
    (fun k => W (ix2 j k)) (c (ix2 (0 : Fin 1) j))

/-- The [8192, 12288] output array. -/
def rowsOut (X : (⟨2, ![8192, 4096]⟩ : Shape).Idx → EReal) (g b : (⟨2, ![1, 4096]⟩ : Shape).Idx → EReal)
    (W : (⟨2, ![12288, 4096]⟩ : Shape).Idx → EReal) (c : (⟨2, ![1, 12288]⟩ : Shape).Idx → EReal) :
    (⟨2, ![8192, 12288]⟩ : Shape).Idx → EReal :=
  fun i => rowsOutAt X g b W c (i 0) (i 1)

/-- Entry (b, s, j) of the [4, 2048, 12288] result: row (b, s) of `x` normalised with gain `g` and offset `o`,
    against weight row j, plus bias j. -/
def resultAt (x : (⟨3, ![4, 2048, 4096]⟩ : Shape).Idx → EReal) (w : (⟨2, ![12288, 4096]⟩ : Shape).Idx → EReal)
    (bias : (⟨1, ![12288]⟩ : Shape).Idx → EReal) (g o : (⟨1, ![4096]⟩ : Shape).Idx → EReal)
    (b : Fin 4) (s : Fin 2048) (j : Fin 12288) : EReal :=
  affineOut (fun k => x (ix3 b s k)) (fun k => g (ix1 k)) (fun k => o (ix1 k)) (fun k => w (ix2 j k)) (bias (ix1 j))

/-- The [4, 2048, 12288] result array. -/
def result (x : (⟨3, ![4, 2048, 4096]⟩ : Shape).Idx → EReal) (w : (⟨2, ![12288, 4096]⟩ : Shape).Idx → EReal)
    (bias : (⟨1, ![12288]⟩ : Shape).Idx → EReal) (g o : (⟨1, ![4096]⟩ : Shape).Idx → EReal) :
    (⟨3, ![4, 2048, 12288]⟩ : Shape).Idx → EReal :=
  fun i => resultAt x w bias g o (i 0) (i 1) (i 2)

theorem rowsOut_ix2 (X : (⟨2, ![8192, 4096]⟩ : Shape).Idx → EReal) (g b : (⟨2, ![1, 4096]⟩ : Shape).Idx → EReal)
    (W : (⟨2, ![12288, 4096]⟩ : Shape).Idx → EReal) (c : (⟨2, ![1, 12288]⟩ : Shape).Idx → EReal)
    (r : Fin 8192) (j : Fin 12288) : rowsOut X g b W c (ix2 r j) = rowsOutAt X g b W c r j := rfl

theorem result_ix3 (x : (⟨3, ![4, 2048, 4096]⟩ : Shape).Idx → EReal) (w : (⟨2, ![12288, 4096]⟩ : Shape).Idx → EReal)
    (bias : (⟨1, ![12288]⟩ : Shape).Idx → EReal) (g o : (⟨1, ![4096]⟩ : Shape).Idx → EReal)
    (b : Fin 4) (s : Fin 2048) (j : Fin 12288) : result x w bias g o (ix3 b s j) = resultAt x w bias g o b s j := rfl

end LnLinear

end
-- ==== Proof.RefIsSpec.lean ====
/-
  The reference program computes the specification.

  The reference normalises each row (b, s) of the [4, 2048, 4096] input — the row's sum over its last axis divided
  by 4096, the difference from that mean, the sum of the squared differences divided by 4096, the inverse square
  root of that plus ε — multiplies by the gain and adds the offset (both broadcast along the rows), contracts the
  last axis against the last axis of the [12288, 4096] weight, and adds the bias broadcast along (b, s).  Read one
  operation at a time and at an index written by its coordinates, each stage is the specification's function of
  row (b, s): the sums start from the zero word, which adds nothing.
-/
import proofs.«167743_j73375221285154_2_alg».proof.Proof.Gen.ReferenceIdeal.Read
import proofs.«167743_j73375221285154_2_alg».proof.Proof.LnLinearSpec

noncomputable section

open scoped BigOperators
open Idealize.ShloMosaic Idealize.ShloMosaic.TcCoe Idealize.ShloMosaic.ValueIdx

namespace Cert.ReferenceIdeal.RefValue

open Cert.ReferenceIdeal Cert.ReferenceIdeal.Read

/-- An index of a rank-3 array with the given coordinates is the one built from them. -/
theorem idx3_eq {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c := by
  funext d
  match d with
  | ⟨0, _⟩ => exact Fin.ext h0
  | ⟨1, _⟩ => exact Fin.ext h1
  | ⟨2, _⟩ => exact Fin.ext h2

/-- The same at rank 2. -/
theorem idx2_eq {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

/-- The same at rank 1. -/
theorem idx1_eq {n0 : Nat} (f : (⟨1, ![n0]⟩ : Shape).Idx) (a : Fin n0) (h0 : (f 0).val = a.val) : f = ix1 a := by
  funext d
  match d with
  | ⟨0, _⟩ => exact Fin.ext h0

variable (x0 : (⟨S4x2048x4096, .f32⟩ : BufTy).Contents (Elt Ideal))

/-- Row (b, s) of the input. -/
abbrev row (b : Fin 4) (s : Fin 2048) : Fin 4096 → EReal := fun k => x0 (ix3 b s k)

/-- The first reduction at (b, s) is the sum of row (b, s). -/
theorem sum_row (b : Fin 4) (s : Fin 2048) : val_main_v0 (F := Ideal) x0 (ix2 b s) = ∑ k, row x0 b s k := by
  rw [val_main_v0_apply, val_main_cst_apply, Ideal.ofBits_def, Ideal.ofBits_zero_f32, zero_add]
  exact Finset.sum_congr rfl fun k _ => congrArg x0 (idx3_eq _ b s k rfl rfl rfl)

/-- The quotient by 4096, kept as a column, is the row's mean. -/
theorem mean_row (b : Fin 4) (s : Fin 2048) (u : Fin 1) :
    val_main_v3 (F := Ideal) x0 (ix3 b s u) = LnLinear.mean (row x0 b s) := by
  rw [val_main_v3_apply, val_main_v1_apply, val_main_v2_apply, val_main_cst_0_apply,
    idx2_eq (idx_main_v1 (ix3 b s u)) b s rfl rfl, sum_row]
  rfl

/-- The input minus the mean broadcast along the row is the centred row (the operand of the square). -/
theorem centred_row_sq (b : Fin 4) (s : Fin 2048) (k : Fin 4096) :
    val_main_v5 (F := Ideal) x0 (ix3 b s k) = LnLinear.centred (row x0 b s) k := by
  rw [val_main_v5_apply, val_main_v4_apply, idx3_eq (idx_main_v4 (ix3 b s k)) b s (0 : Fin 1) rfl rfl rfl, mean_row]
  rfl

/-- The same difference computed a second time (the operand of the rescaling). -/
theorem centred_row (b : Fin 4) (s : Fin 2048) (k : Fin 4096) :
    val_main_v12 (F := Ideal) x0 (ix3 b s k) = LnLinear.centred (row x0 b s) k := by
  rw [val_main_v12_apply, val_main_v11_apply, idx3_eq (idx_main_v11 (ix3 b s k)) b s (0 : Fin 1) rfl rfl rfl, mean_row]
  rfl

/-- The second reduction at (b, s) is the sum of the squares of the centred row. -/
theorem sum_sq_row (b : Fin 4) (s : Fin 2048) :
    val_main_v7 (F := Ideal) x0 (ix2 b s) = ∑ k, LnLinear.centred (row x0 b s) k * LnLinear.centred (row x0 b s) k := by
  rw [val_main_v7_apply, val_main_cst_1_apply, Ideal.ofBits_def, Ideal.ofBits_zero_f32, zero_add]
  refine Finset.sum_congr rfl fun k _ => ?_
  rw [idx3_eq (idx_main_v7 (ix2 b s) k) b s k rfl rfl rfl, val_main_v6_apply, centred_row_sq]
  rfl

/-- Its quotient by 4096 is the row's variance. -/
theorem variance_row (b : Fin 4) (s : Fin 2048) (u : Fin 1) :
    val_main_v10 (F := Ideal) x0 (ix3 b s u) = LnLinear.variance (row x0 b s) := by
  rw [val_main_v10_apply, val_main_v8_apply, val_main_v9_apply, val_main_cst_2_apply,
    idx2_eq (idx_main_v8 (ix3 b s u)) b s rfl rfl, sum_sq_row]
  rfl

/-- The inverse square root of the variance plus ε is the row's rescaling factor. -/
theorem invStd_row (b : Fin 4) (s : Fin 2048) (u : Fin 1) :
    val_main_v15 (F := Ideal) x0 (ix3 b s u) = LnLinear.invStd (row x0 b s) := by
  rw [val_main_v15_apply, val_main_v14_apply, variance_row, val_main_v13_apply, val_main_cst_3_apply]
  rfl

variable (x1 : (⟨S12288x4096, .f32⟩ : BufTy).Contents (Elt Ideal)) (x2 : (⟨S12288, .f32⟩ : BufTy).Contents (Elt Ideal))
  (x3 x4 : (⟨S4096, .f32⟩ : BufTy).Contents (Elt Ideal))

/-- The rescaled row times the gain plus the offset is the normalised row. -/
theorem normed_row (b : Fin 4) (s : Fin 2048) (k : Fin 4096) :
    val_main_v23 (F := Ideal) x0 x3 x4 (ix3 b s k)
      = LnLinear.normed (row x0 b s) (fun k => x3 (ix1 k)) (fun k => x4 (ix1 k)) k := by
  rw [val_main_v23_apply, val_main_v20_apply, val_main_v17_apply, centred_row, val_main_v16_apply,
    idx3_eq (idx_main_v16 (ix3 b s k)) b s (0 : Fin 1) rfl rfl rfl, invStd_row,
    val_main_v19_apply, val_main_v18_apply, idx1_eq (idx_main_v18 (idx_main_v19 (ix3 b s k))) k rfl,
    val_main_v22_apply, val_main_v21_apply, idx1_eq (idx_main_v21 (idx_main_v22 (ix3 b s k))) k rfl]
  rfl

/-- The contraction against weight row j plus bias j is the specification's entry (b, s, j). -/
theorem out_entry (b : Fin 4) (s : Fin 2048) (j : Fin 12288) :
    val_main_v27 (F := Ideal) x0 x1 x2 x3 x4 (ix3 b s j) = LnLinear.resultAt x0 x1 x2 x3 x4 b s j := by
  rw [val_main_v27_apply, val_main_v24_apply, val_main_v26_apply, val_main_v25_apply,
    idx1_eq (idx_main_v25 (idx_main_v26 (ix3 b s j))) j rfl]
  have hs : (∑ k : Fin 4096, val_main_v23 (F := Ideal) x0 x3 x4 (lidx_main_v24 (ix3 b s j) k) * x1 (ridx_main_v24 (ix3 b s j) k))
      = ∑ k : Fin 4096, LnLinear.normed (row x0 b s) (fun k => x3 (ix1 k)) (fun k => x4 (ix1 k)) k * x1 (ix2 j k) :=
    Finset.sum_congr rfl fun k _ => by
      rw [idx3_eq (lidx_main_v24 (ix3 b s j) k) b s k rfl rfl rfl, idx2_eq (ridx_main_v24 (ix3 b s j) k) j k rfl rfl, normed_row]
  rw [hs]
  rfl

/-- The reference's result array is the specification's, of the same five arguments. -/
theorem ref_is_spec : val_main_v27 (F := Ideal) x0 x1 x2 x3 x4 = LnLinear.result x0 x1 x2 x3 x4 := by
  funext i
  obtain ⟨b, s, j, rfl⟩ : ∃ (b : Fin 4) (s : Fin 2048) (j : Fin 12288), i = ix3 b s j := ⟨i 0, i 1, i 2, eq_ix3 i⟩
  exact out_entry x0 x1 x2 x3 x4 b s j

end Cert.ReferenceIdeal.RefValue

end
-- ==== Proof.KernelGridFacts.lean ====
/-
  Where the two kernel regions' blocks sit, point by point.

  The first region's grid has 24 points; at point t both its windows are at block row t.  The second region's grid
  is 12 × 32, the second coordinate running fastest: point 32·n + m has the row block of the input and of the output
  at m, the weight rows, the bias piece and the output's column block at n, and the gain and the offset at their one
  block.  Each fact is decided by evaluating the printed index maps at every point of the grid.
-/
import proofs.«167743_j73375221285154_2_alg».proof.Proof.Gen.KernelIdeal.Frame
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Arrays

open Cert.KernelIdeal Cert.KernelIdeal.Gen

/-! ## The first region -/

/-- The input's and the output's blocks sit at the same position at every point. -/
theorem cast_idx : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Block row q of the output is point q's. -/
theorem cast_at : ∀ q0 : Fin 24, win0_1.index (⟨q0.val, q0.isLt⟩ : Fin grid0.N) = ![q0.val, 0] :=
  by decide +kernel

/-! ## The second region -/

/-- How the six windows' block positions are related at every point: the rows follow the output's first
    coordinate, the weight rows and the bias piece its second, the gain and the offset stay put. -/
theorem fused_idx : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = win1_5.index t (1 : Fin 2) ∧ win1_3.index t (1 : Fin 2) = 0
    ∧ win1_4.index t (0 : Fin 2) = 0 ∧ win1_4.index t (1 : Fin 2) = win1_5.index t (1 : Fin 2)
    ∧ win1_5.index t (0 : Fin 2) ≤ 31 ∧ win1_5.index t (1 : Fin 2) ≤ 11 :=
  (by decide +kernel : ∀ t : Fin grid1.N, _)

/-- The point that handles block position (q0, q1) of the output. -/
def pointOf (q0 : Fin 32) (q1 : Fin 12) : Fin grid1.N :=
  ⟨q1.val * 32 + q0.val, by have := q0.isLt; have := q1.isLt; show q1.val * 32 + q0.val < 384; omega⟩

/-- Block position (q0, q1) of the output is point 32·q1 + q0's. -/
theorem fused_at : ∀ (q0 : Fin 32) (q1 : Fin 12), win1_5.index (pointOf q0 q1) = ![q0.val, q1.val] :=
  by decide +kernel

end Cert.KernelIdeal.Arrays

end
-- ==== Proof.KernelCastArray.lean ====
/-
  The first kernel region's output array.

  The region walks the [12288, 4096] weight in 24 blocks of 512 rows and stores each block changed to the narrower
  float format, which is the identity on the extended reals.  What point t writes back is block t of the weight, and
  the 24 blocks tile the array, so the output array is the weight the region found.
-/
import proofs.«167743_j73375221285154_2_alg».proof.Proof.KernelGridFacts
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Arrays

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The weight as the first region finds it, read as extended reals. -/
abbrev weightIn (c : Dev nD) : S12288x4096.Idx → EReal := V c main_arg1

/-- What point t writes back is block t of the weight. -/
theorem cast_flushed (c : Dev nD) (t : Fin cfg0.N) :
    (dat0 V c).flushed 1 t = ((cfg0.win 1).blk t).view.read (Elt Ideal) (weightIn V c) := by
  show (cfg0.win 1).cut (grid0.coords t) ((dat0 V c).after 1 t) = _
  rw [after0_1]
  unfold out0_1
  rw [View.canon_unit_zero hz]
  simp only [View.ld_unit_zero (S := S512x4096) hz]
  obtain ⟨e0, e1⟩ := cast_idx t
  funext j
  show V c main_arg1 (((cfg0.win 0).blk t).view.emb j) = V c main_arg1 (((cfg0.win 1).blk t).view.emb j)
  refine congrArg (V c main_arg1) (funext fun a => Fin.ext ?_)
  match a with
  | ⟨0, _⟩ => show win0_0.index t (0 : Fin 2) * 512 + 1 * (j 0).val = win0_1.index t (0 : Fin 2) * 512 + 1 * (j 0).val; rw [e0]
  | ⟨1, _⟩ => show win0_0.index t (1 : Fin 2) * 4096 + 1 * (j 1).val = win0_1.index t (1 : Fin 2) * 4096 + 1 * (j 1).val; rw [e1]

theorem cast_mem_blk (t : Fin cfg0.N) (i : S12288x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v4).slice (win0_1.rect t)).set ↔ _
  rw [View.set_slice_whole, Rect.mem_set_unit]
  exact Iff.rfl

/-- Every entry of the output is in the block of the point that handles its 512 rows. -/
theorem cast_cover (i : S12288x4096.Idx) :
    ∃ t : Fin cfg0.N, (cfg0.win 1).flush t = true ∧ i ∈ ((cfg0.win 1).blk t).view.set := by
  have hi0 : (i 0).val < 12288 := (i 0).isLt
  have hi1 : (i 1).val < 4096 := (i 1).isLt
  have hq : (i 0).val / 512 < 24 := by omega
  have ht := cast_at ⟨(i 0).val / 512, hq⟩
  have q0 : win0_1.index (⟨(i 0).val / 512, hq⟩ : Fin grid0.N) (0 : Fin 2) = (i 0).val / 512 := congrFun ht 0
  have q1 : win0_1.index (⟨(i 0).val / 512, hq⟩ : Fin grid0.N) (1 : Fin 2) = 0 := congrFun ht 1
  refine ⟨⟨(i 0).val / 512, hq⟩, flush0_1 _, ?_⟩
  rw [cast_mem_blk]
  intro a
  match a with
  | ⟨0, _⟩ => show win0_1.index (⟨(i 0).val / 512, hq⟩ : Fin grid0.N) (0 : Fin 2) * 512 ≤ (i 0).val ∧ (i 0).val < win0_1.index (⟨(i 0).val / 512, hq⟩ : Fin grid0.N) (0 : Fin 2) * 512 + 512; rw [q0]; omega
  | ⟨1, _⟩ => show win0_1.index (⟨(i 0).val / 512, hq⟩ : Fin grid0.N) (1 : Fin 2) * 4096 ≤ (i 1).val ∧ (i 1).val < win0_1.index (⟨(i 0).val / 512, hq⟩ : Fin grid0.N) (1 : Fin 2) * 4096 + 4096; rw [q1]; omega

/-- The first region's output array is the weight it found. -/
theorem cast_final (c : Dev nD) : (dat0 V c).arrAt 1 cfg0.N = weightIn V c :=
  (dat0 V c).arrAt_eq_of_cover 1 (weightIn V c) (fun t _ => cast_flushed V c t) (cast_cover)

end Cert.KernelIdeal.Arrays

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KernelBlock.lean ====
/-
  The fused kernel's body on one block, read at an index.

  The body loads a [256, 4096] block of rows, the gain and the offset as [1, 4096] rows, a [1024, 4096] block of
  weight rows and a [1, 1024] piece of the bias, and stores a [256, 1024] block.  Entry (p, q) of what it stores is
  the specification's output for row p of the row block against weight row q of the weight block, plus entry q of
  the bias piece: the row's sum kept as a column and divided by 4096 is its mean; the column broadcast back along
  the row and subtracted gives the centred row; the same with the squares gives the variance and, after adding ε and
  the inverse square root, the rescaling column; gain and offset rows are broadcast down the 256 rows; the change to
  the narrower float format is the identity on the extended reals; and the matrix unit's product into a zero
  accumulator, both operands contracted on their last axis, is the sum over k of the two rows' products.
-/
import proofs.«167743_j73375221285154_2_alg».proof.Proof.Gen.KernelIdeal.Skeleton
import proofs.«167743_j73375221285154_2_alg».proof.Proof.LnLinearSpec
import proofs.«167743_j73375221285154_2_alg».proof.Proof.LibDotRowsT
import proofs.«167743_j73375221285154_2_alg».proof.Proof.LibLayout
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.Block

open Cert.KernelIdeal Cert.KernelIdeal.Gen

/-! ## The row sums, kept as a column -/

/-- The sum over the last axis of a [256, 4096] block, reshaped to a column, reads at (p, ·) the sum of row p. -/
theorem rowsum_col (v : FVec Ideal S256x4096 .f32) (p : Fin 256) (u : Fin 1) :
    shapeCast S256x1 (multiReduction .add [1] S256 v 0x00000000#32 reduces_S256x4096_S256 (.inl rfl) rfl) shapeCasts_S256_S256x1 (ix2 p u)
      = ∑ k : Fin 4096, v (ix2 p k) := by
  refine (shapeCast_a_a1_apply _ shapeCasts_S256_S256x1 p u).trans ?_
  refine (Ideal.multiReduction_add_single v 0x00000000#32 reduces_S256x4096_S256 (.inl rfl) rfl (ix1 p)).trans ?_
  refine Finset.sum_congr rfl fun k _ => congrArg v ?_
  funext a
  match a with
  | ⟨0, _⟩ => rfl
  | ⟨1, _⟩ => rfl

/-! ## The stages of the body, as functions of the loaded blocks -/

/-- The column of row means. -/
def meanCol (x0 : FVec Ideal S256x4096 .f32) : FVec Ideal S256x1 .f32 :=
  divf (shapeCast S256x1 (multiReduction .add [1] S256 x0 0x00000000#32 reduces_S256x4096_S256 (.inl rfl) rfl) shapeCasts_S256_S256x1)
    (broadcast S256x1 (Scalar.ofBits .f32 0x45800000#32))

/-- The block with each row's mean subtracted. -/
def centredBlk (x0 : FVec Ideal S256x4096 .f32) : FVec Ideal S256x4096 .f32 :=
  subf x0 (broadcastTo S256x4096 (meanCol x0) broadcasts_S256x1_S256x4096)

/-- The column of rescaling factors. -/
def invCol (x0 : FVec Ideal S256x4096 .f32) : FVec Ideal S256x1 .f32 :=
  rsqrt (addf (divf (shapeCast S256x1 (multiReduction .add [1] S256 (mulf (centredBlk x0) (centredBlk x0)) 0x00000000#32
        reduces_S256x4096_S256 (.inl rfl) rfl) shapeCasts_S256_S256x1)
      (broadcast S256x1 (Scalar.ofBits .f32 0x45800000#32)))
    (broadcast S256x1 (Scalar.ofBits .f32 0x3727C5AC#32)))

/-- The normalised block. -/
def normedBlk (x0 : FVec Ideal S256x4096 .f32) (x1 x2 : FVec Ideal S1x4096 .f32) : FVec Ideal S256x4096 .f32 :=
  addf (mulf (mulf (centredBlk x0) (broadcastTo S256x4096 (invCol x0) broadcasts_S256x1_S256x4096))
      (broadcastTo S256x4096 x1 broadcasts_S1x4096_S256x4096))
    (broadcastTo S256x4096 x2 broadcasts_S1x4096_S256x4096)

/-- What the body stores is the product of the normalised block with the weight block, plus the bias piece
    broadcast down the rows: the casts to the same shape and the change of float format drop out. -/
theorem pay_eq (x0 : FVec Ideal S256x4096 .f32) (x1 x2 : FVec Ideal S1x4096 .f32) (x3 : FVec Ideal S1024x4096 .bf16)
    (x4 : FVec Ideal S1x1024 .f32) :
    k1_pay1 (F := Ideal) x0 x1 x2 x3 x4
      = addf (matmul dot_S256x4096_S1024x4096_S256x1024_1_1_0_0_n_n none (normedBlk x0 x1 x2) x3 (constant S256x1024 .f32 0x00000000#32))
          (broadcastTo S256x1024 x4 broadcasts_S1x1024_S256x1024) := by
  unfold k1_pay1 normedBlk invCol centredBlk meanCol
  simp only [shapeCast_self]
  rfl

/-! ## Each stage at an index -/

/-- Row p of a block. -/
abbrev brow (x0 : FVec Ideal S256x4096 .f32) (p : Fin 256) : Fin 4096 → EReal := fun k => x0 (ix2 p k)

theorem meanCol_apply (x0 : FVec Ideal S256x4096 .f32) (p : Fin 256) (u : Fin 1) :
    meanCol x0 (ix2 p u) = LnLinear.mean (brow x0 p) := by
  unfold meanCol
  rw [divf_apply, rowsum_col]
  rfl

theorem centredBlk_apply (x0 : FVec Ideal S256x4096 .f32) (p : Fin 256) (k : Fin 4096) :
    centredBlk x0 (ix2 p k) = LnLinear.centred (brow x0 p) k := by
  unfold centredBlk
  rw [subf_apply, broadcastTo_a1_ab_apply, meanCol_apply]
  rfl

theorem invCol_apply (x0 : FVec Ideal S256x4096 .f32) (p : Fin 256) (u : Fin 1) :
    invCol x0 (ix2 p u) = LnLinear.invStd (brow x0 p) := by
  unfold invCol
  show Ideal.rsqrt (Ideal.div (shapeCast S256x1 (multiReduction .add [1] S256 (mulf (centredBlk x0) (centredBlk x0)) 0x00000000#32
        reduces_S256x4096_S256 (.inl rfl) rfl) shapeCasts_S256_S256x1 (ix2 p u)) (Ideal.ofBits .f32 0x45800000#32)
      + Ideal.ofBits .f32 0x3727C5AC#32) = _
  rw [rowsum_col]
  simp only [mulf_apply, centredBlk_apply]
  rfl

theorem normedBlk_apply (x0 : FVec Ideal S256x4096 .f32) (x1 x2 : FVec Ideal S1x4096 .f32) (p : Fin 256) (k : Fin 4096) :
    normedBlk x0 x1 x2 (ix2 p k)
      = LnLinear.normed (brow x0 p) (fun k => x1 (ix2 (0 : Fin 1) k)) (fun k => x2 (ix2 (0 : Fin 1) k)) k := by
  unfold normedBlk
  rw [addf_apply, mulf_apply, mulf_apply, centredBlk_apply, broadcastTo_a1_ab_apply, invCol_apply,
    broadcastTo_1b_ab_apply, broadcastTo_1b_ab_apply]
  rfl

/-! ## The matrix product's index facts -/

theorem dot_lhs0 (j : S256x1024.Idx) (k : dot_S256x4096_S1024x4096_S256x1024_1_1_0_0_n_n.contr.Idx) :
    (dot_S256x4096_S1024x4096_S256x1024_1_1_0_0_n_n.lhsIdx j k 0).val = (j 0).val := by
  unfold DotDims.lhsIdx
  rw [dif_neg (show ¬(0 : Fin S256x4096.rank) ∈ dot_S256x4096_S1024x4096_S256x1024_1_1_0_0_n_n.lhsBatch by decide),
    dif_pos (show (0 : Fin S256x4096.rank) ∈ dot_S256x4096_S1024x4096_S256x1024_1_1_0_0_n_n.lhsNonContracting by decide)]
  rfl

theorem dot_lhs1 (j : S256x1024.Idx) (k : dot_S256x4096_S1024x4096_S256x1024_1_1_0_0_n_n.contr.Idx) :
    (dot_S256x4096_S1024x4096_S256x1024_1_1_0_0_n_n.lhsIdx j k 1).val = (k ⟨0, by decide⟩).val :=
  dot_S256x4096_S1024x4096_S256x1024_1_1_0_0_n_n.lhsIdx_val_of_single rfl j k

theorem dot_rhs0 (j : S256x1024.Idx) (k : dot_S256x4096_S1024x4096_S256x1024_1_1_0_0_n_n.contr.Idx) :
    (dot_S256x4096_S1024x4096_S256x1024_1_1_0_0_n_n.rhsIdx j k 0).val = (j 1).val := by
  unfold DotDims.rhsIdx
  rw [dif_neg (show ¬(0 : Fin S1024x4096.rank) ∈ dot_S256x4096_S1024x4096_S256x1024_1_1_0_0_n_n.rhsBatch by decide),
    dif_pos (show (0 : Fin S1024x4096.rank) ∈ dot_S256x4096_S1024x4096_S256x1024_1_1_0_0_n_n.rhsNonContracting by decide)]
  rfl

theorem dot_rhs1 (j : S256x1024.Idx) (k : dot_S256x4096_S1024x4096_S256x1024_1_1_0_0_n_n.contr.Idx) :
    (dot_S256x4096_S1024x4096_S256x1024_1_1_0_0_n_n.rhsIdx j k 1).val = (k ⟨0, by decide⟩).val :=
  dot_S256x4096_S1024x4096_S256x1024_1_1_0_0_n_n.rhsIdx_val_of_single rfl j k

/-! ## The stored block at an index -/

/-- Entry (p, q) of the stored block is the specification's output for row p of the row block against weight row
    q of the weight block and entry q of the bias piece. -/
theorem pay_apply (x0 : FVec Ideal S256x4096 .f32) (x1 x2 : FVec Ideal S1x4096 .f32) (x3 : FVec Ideal S1024x4096 .bf16)
    (x4 : FVec Ideal S1x1024 .f32) (p : Fin 256) (q : Fin 1024) :
    k1_pay1 (F := Ideal) x0 x1 x2 x3 x4 (ix2 p q)
      = LnLinear.affineOut (brow x0 p) (fun k => x1 (ix2 (0 : Fin 1) k)) (fun k => x2 (ix2 (0 : Fin 1) k))
          (fun k => x3 (ix2 q k)) (x4 (ix2 (0 : Fin 1) q)) := by
  rw [pay_eq, addf_apply]
  refine congrArg₂ (· + ·) ?_ (broadcastTo_1b_ab_apply x4 broadcasts_S1x1024_S256x1024 p q)
  refine (matmul_zero_rowsT dot_S256x4096_S1024x4096_S256x1024_1_1_0_0_n_n none rfl rfl dot_lhs0 dot_lhs1 dot_rhs0 dot_rhs1
    (normedBlk x0 x1 x2) x3 p q).trans ?_
  exact Finset.sum_congr rfl fun k _ => by rw [normedBlk_apply]

end Cert.KernelIdeal.Block

end
-- ==== Proof.KernelFusedArray.lean ====
/-
  The second kernel region's output array.

  The region walks a 12 × 32 grid; at point 32·n + m it reads rows 256·m … 256·m + 255 of the flattened input, the
  whole gain and offset rows, weight rows 1024·n … 1024·n + 1023 and the matching piece of the bias row, and writes
  the [256, 1024] block of the output at block position (m, n).  Each written block is the same block of ONE function
  of the whole arrays — the specification's rowsOut — and the 32 × 12 blocks tile the [8192, 12288] output, so the
  output array is that function.
-/
import proofs.«167743_j73375221285154_2_alg».proof.Proof.KernelGridFacts
import proofs.«167743_j73375221285154_2_alg».proof.Proof.KernelBlock
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Arrays

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- One entry of a stored block is the specification's entry of the whole arrays, when the loaded blocks are the
    whole arrays read at the block's offsets: rows r0 + p of the input, weight rows and bias entries c0 + q. -/
theorem block_entry (X : S8192x4096.Idx → EReal) (g o : S1x4096.Idx → EReal) (W : S12288x4096.Idx → EReal)
    (cc : S1x12288.Idx → EReal)
    (x0 : FVec Ideal S256x4096 .f32) (x1 x2 : FVec Ideal S1x4096 .f32) (x3 : FVec Ideal S1024x4096 .bf16)
    (x4 : FVec Ideal S1x1024 .f32) (y : S256x1024.Idx) (i : S8192x12288.Idx) (r0 c0 : Nat)
    (hi0 : (i 0).val = r0 + (y 0).val) (hi1 : (i 1).val = c0 + (y 1).val)
    (hx0 : ∀ (p : Fin 256) (k : Fin 4096) (r : Fin 8192), r.val = r0 + p.val → x0 (ix2 p k) = X (ix2 r k))
    (hx1 : ∀ k : Fin 4096, x1 (ix2 (0 : Fin 1) k) = g (ix2 (0 : Fin 1) k))
    (hx2 : ∀ k : Fin 4096, x2 (ix2 (0 : Fin 1) k) = o (ix2 (0 : Fin 1) k))
    (hx3 : ∀ (q : Fin 1024) (k : Fin 4096) (j : Fin 12288), j.val = c0 + q.val → x3 (ix2 q k) = W (ix2 j k))
    (hx4 : ∀ (q : Fin 1024) (j : Fin 12288), j.val = c0 + q.val → x4 (ix2 (0 : Fin 1) q) = cc (ix2 (0 : Fin 1) j)) :
    k1_pay1 (F := Ideal) x0 x1 x2 x3 x4 y = LnLinear.rowsOut X g o W cc i := by
  obtain ⟨p, q, rfl⟩ : ∃ (p : Fin 256) (q : Fin 1024), y = ix2 p q := ⟨y 0, y 1, eq_ix2 y⟩
  obtain ⟨r, j, rfl⟩ : ∃ (r : Fin 8192) (j : Fin 12288), i = ix2 r j := ⟨i 0, i 1, eq_ix2 i⟩
  have hr : r.val = r0 + p.val := hi0
  have hj : j.val = c0 + q.val := hi1
  rw [Block.pay_apply, LnLinear.rowsOut_ix2]
  unfold LnLinear.rowsOutAt
  have e0 : Block.brow x0 p = fun k => X (ix2 r k) := funext fun k => hx0 p k r hr
  have e1 : (fun k => x1 (ix2 (0 : Fin 1) k)) = fun k => g (ix2 (0 : Fin 1) k) := funext hx1
  have e2 : (fun k => x2 (ix2 (0 : Fin 1) k)) = fun k => o (ix2 (0 : Fin 1) k) := funext hx2
  have e3 : (fun k => x3 (ix2 q k)) = fun k => W (ix2 j k) := funext fun k => hx3 q k j hj
  rw [e0, e1, e2, e3, hx4 q j hj]

/-- The arrays the second region finds, read as extended reals. -/
abbrev rowsIn (c : Dev nD) : S8192x4096.Idx → EReal := V c main_v0
abbrev gainIn (c : Dev nD) : S1x4096.Idx → EReal := V c main_v1
abbrev offsetIn (c : Dev nD) : S1x4096.Idx → EReal := V c main_v2
abbrev weightBf (c : Dev nD) : S12288x4096.Idx → EReal := V c main_v4
abbrev biasIn (c : Dev nD) : S1x12288.Idx → EReal := V c main_v3

/-- The whole [8192, 12288] output as one function of those arrays. -/
abbrev fusedOut (c : Dev nD) : S8192x12288.Idx → EReal :=
  LnLinear.rowsOut (rowsIn V c) (gainIn V c) (offsetIn V c) (weightBf V c) (biasIn V c)

/-- What point t writes back is block t of that function. -/
theorem fused_flushed (c : Dev nD) (t : Fin cfg1.N) :
    (dat1 V c).flushed 5 t = ((cfg1.win 5).blk t).view.read (Elt Ideal) (fusedOut V c) := by
  show (cfg1.win 5).cut (grid1.coords t) ((dat1 V c).after 5 t) = _
  rw [after1_5]
  unfold out1_5
  rw [View.canon_unit_zero hz1]
  simp only [View.ld_unit_zero (S := S256x4096) hz1, View.ld_unit_zero (S := S1x4096) hz1,
    View.ld_unit_zero (S := S1024x4096) hz1, View.ld_unit_zero (S := S1x1024) hz1]
  obtain ⟨e00, e01, e10, e11, e20, e21, e30, e31, e40, e41, b0, b1⟩ := fused_idx t
  funext y
  refine block_entry (rowsIn V c) (gainIn V c) (offsetIn V c) (weightBf V c) (biasIn V c)
    (iblk1 V c 0 t) (iblk1 V c 1 t) (iblk1 V c 2 t) (iblk1 V c 3 t) (iblk1 V c 4 t) y
    (((cfg1.win 5).blk t).view.emb y) (win1_5.index t (0 : Fin 2) * 256) (win1_5.index t (1 : Fin 2) * 1024)
    ?_ ?_ ?_ ?_ ?_ ?_ ?_
  · show win1_5.index t (0 : Fin 2) * 256 + 1 * (y 0).val = _; omega
  · show win1_5.index t (1 : Fin 2) * 1024 + 1 * (y 1).val = _; omega
  · intro p k r hr
    show V c main_v0 (((cfg1.win 0).blk t).view.emb (ix2 p k)) = V c main_v0 (ix2 r k)
    refine congrArg (V c main_v0) (funext fun a => Fin.ext ?_)
    match a with
    | ⟨0, _⟩ => show win1_0.index t (0 : Fin 2) * 256 + 1 * p.val = r.val; omega
    | ⟨1, _⟩ => show win1_0.index t (1 : Fin 2) * 4096 + 1 * k.val = k.val; omega
  · intro k
    show V c main_v1 (((cfg1.win 1).blk t).view.emb (ix2 (0 : Fin 1) k)) = V c main_v1 (ix2 (0 : Fin 1) k)
    refine congrArg (V c main_v1) (funext fun a => Fin.ext ?_)
    match a with
    | ⟨0, _⟩ => show win1_1.index t (0 : Fin 2) * 1 + 1 * 0 = 0; omega
    | ⟨1, _⟩ => show win1_1.index t (1 : Fin 2) * 4096 + 1 * k.val = k.val; omega
  · intro k
    show V c main_v2 (((cfg1.win 2).blk t).view.emb (ix2 (0 : Fin 1) k)) = V c main_v2 (ix2 (0 : Fin 1) k)
    refine congrArg (V c main_v2) (funext fun a => Fin.ext ?_)
    match a with
    | ⟨0, _⟩ => show win1_2.index t (0 : Fin 2) * 1 + 1 * 0 = 0; omega
    | ⟨1, _⟩ => show win1_2.index t (1 : Fin 2) * 4096 + 1 * k.val = k.val; omega
  · intro q k j hj
    show V c main_v4 (((cfg1.win 3).blk t).view.emb (ix2 q k)) = V c main_v4 (ix2 j k)
    refine congrArg (V c main_v4) (funext fun a => Fin.ext ?_)
    match a with
    | ⟨0, _⟩ => show win1_3.index t (0 : Fin 2) * 1024 + 1 * q.val = j.val; omega
    | ⟨1, _⟩ => show win1_3.index t (1 : Fin 2) * 4096 + 1 * k.val = k.val; omega
  · intro q j hj
    show V c main_v3 (((cfg1.win 4).blk t).view.emb (ix2 (0 : Fin 1) q)) = V c main_v3 (ix2 (0 : Fin 1) j)
    refine congrArg (V c main_v3) (funext fun a => Fin.ext ?_)
    match a with
    | ⟨0, _⟩ => show win1_4.index t (0 : Fin 2) * 1 + 1 * 0 = 0; omega
    | ⟨1, _⟩ => show win1_4.index t (1 : Fin 2) * 1024 + 1 * q.val = j.val; omega

theorem fused_mem_blk (t : Fin cfg1.N) (i : S8192x12288.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v5).slice (win1_5.rect t)).set ↔ _
  rw [View.set_slice_whole, Rect.mem_set_unit]
  exact Iff.rfl

/-- Every entry of the output is in the block of the point that handles its 256 rows and its 1024 columns. -/
theorem fused_cover (i : S8192x12288.Idx) :
    ∃ t : Fin cfg1.N, (cfg1.win 5).flush t = true ∧ i ∈ ((cfg1.win 5).blk t).view.set := by
  have hi0 : (i 0).val < 8192 := (i 0).isLt
  have hi1 : (i 1).val < 12288 := (i 1).isLt
  have hq0 : (i 0).val / 256 < 32 := by omega
  have hq1 : (i 1).val / 1024 < 12 := by omega
  have ht := fused_at ⟨(i 0).val / 256, hq0⟩ ⟨(i 1).val / 1024, hq1⟩
  generalize pointOf ⟨(i 0).val / 256, hq0⟩ ⟨(i 1).val / 1024, hq1⟩ = t at ht
  have q0 : win1_5.index t (0 : Fin 2) = (i 0).val / 256 := congrFun ht 0
  have q1 : win1_5.index t (1 : Fin 2) = (i 1).val / 1024 := congrFun ht 1
  refine ⟨t, flush1_5 t, ?_⟩
  rw [fused_mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1024 ≤ (i 1).val ∧ (i 1).val < win1_5.index t (1 : Fin 2) * 1024 + 1024; omega

/-- The second region's output array is the specification's function of the arrays it found. -/
theorem fused_final (c : Dev nD) : (dat1 V c).arrAt 5 cfg1.N = fusedOut V c :=
  (dat1 V c).arrAt_eq_of_cover 5 (fusedOut V c) (fun t _ => fused_flushed V c t) (fused_cover)

end Cert.KernelIdeal.Arrays

end
-- ==== Proof.KernelRun.lean ====
/-
  The kernel program's run, with its result array named.

  The program is two kernel regions between stretches of host reshapes.  Every weakly fair execution terminates
  without a fault, and the final memory holds, in every unscoped buffer, the contents at the last segment
  boundary: the fold of the launch memory through the first reshapes, the two regions' write-backs and the last
  reshape.  Read at the result buffer this names the result; read at the five arguments it gives back the launch
  contents, which nothing writes.
-/
import proofs.«167743_j73375221285154_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the five arguments as launched. -/
theorem value_run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.LibMergeRows.lean ====
/-
  Reshapes that merge or split the two LEADING axes of a rank-3 array, read at an index written by coordinates,
  for any element type and any extents.  A `[p, q, m]` array and the `[P, m]` array with the same row-major order
  (`P = p * q`) hold the same element at `(b, s, k)` and at `(b * q + s, k)`.  Each is the library's
  read-at-an-index lemma for a shape cast with the row-major arithmetic done.
-/
import Idealize.ShloMosaic.Lib.Pipeline.Value
import Idealize.ShloMosaic.Lib.ValueIdx

namespace Idealize.ShloMosaic.ValueIdx

open Idealize.ShloMosaic

variable {α : Type}

/-- A `[p, q, m]` array cast to `[P, m]` reads, at `(r, k)` with `r = b * q + s`, the operand at `(b, s, k)`. -/
theorem shapeCast_mergeRows_apply {p q P m : ℕ} (x : (⟨3, ![p, q, m]⟩ : Shape).Idx → α)
    (hc : (⟨3, ![p, q, m]⟩ : Shape).ShapeCasts ⟨2, ![P, m]⟩)
    (b : Fin p) (s : Fin q) (r : Fin P) (k : Fin m) (hr : r.val = b.val * q + s.val) :
    shapeCast ⟨2, ![P, m]⟩ x hc (ix2 r k) = x (ix3 b s k) :=
  shapeCast_apply x hc _ _ (by
    rw [Shape.rowMajor_val_three, Shape.rowMajor_val_two]
    show (b.val * q + s.val) * m + k.val = r.val * m + k.val
    rw [hr])

/-- A `[P, m]` array cast to `[p, q, m]` reads, at `(b, s, k)`, the operand at `(r, k)` with `r = b * q + s`. -/
theorem shapeCast_splitRows_apply {p q P m : ℕ} (y : (⟨2, ![P, m]⟩ : Shape).Idx → α)
    (hc : (⟨2, ![P, m]⟩ : Shape).ShapeCasts ⟨3, ![p, q, m]⟩)
    (b : Fin p) (s : Fin q) (r : Fin P) (k : Fin m) (hr : r.val = b.val * q + s.val) :
    shapeCast ⟨3, ![p, q, m]⟩ y hc (ix3 b s k) = y (ix2 r k) :=
  shapeCast_apply y hc _ _ (by
    rw [Shape.rowMajor_val_three, Shape.rowMajor_val_two]
    show r.val * m + k.val = (b.val * q + s.val) * m + k.val
    rw [hr])

end Idealize.ShloMosaic.ValueIdx
-- ==== Proof.SpecReshape.lean ====
/-
  The specification under the program's reshapes.

  The kernel program flattens the [4, 2048, 4096] input to [8192, 4096] rows, makes the gain, the offset and the
  bias one-row matrices, computes the [8192, 12288] output and reshapes it to [4, 2048, 12288].  Row 2048·b + s of the
  flattened input is row (b, s) of the input, and entry k of a one-row matrix is entry k of the vector, so entry
  (b, s, j) of the reshaped output is the specification's result at (b, s, j).
-/
import proofs.«167743_j73375221285154_2_alg».proof.Proof.LnLinearSpec
import proofs.«167743_j73375221285154_2_alg».proof.Proof.LibMergeRows
import Idealize.ShloMosaic.Lib.ValueLayout

noncomputable section

open scoped BigOperators
open Idealize.ShloMosaic Idealize.ShloMosaic.ValueIdx

namespace LnLinear

/-- The [8192, 12288] output of the flattened arguments, reshaped to [4, 2048, 12288], is the result. -/
theorem reshape_rowsOut (x : (⟨3, ![4, 2048, 4096]⟩ : Shape).Idx → EReal) (w : (⟨2, ![12288, 4096]⟩ : Shape).Idx → EReal)
    (bias : (⟨1, ![12288]⟩ : Shape).Idx → EReal) (g o : (⟨1, ![4096]⟩ : Shape).Idx → EReal)
    (h0 : (⟨3, ![4, 2048, 4096]⟩ : Shape).ShapeCasts ⟨2, ![8192, 4096]⟩)
    (h1 : (⟨1, ![4096]⟩ : Shape).ShapeCasts ⟨2, ![1, 4096]⟩)
    (h2 : (⟨1, ![12288]⟩ : Shape).ShapeCasts ⟨2, ![1, 12288]⟩)
    (h3 : (⟨2, ![8192, 12288]⟩ : Shape).ShapeCasts ⟨3, ![4, 2048, 12288]⟩) :
    shapeCast ⟨3, ![4, 2048, 12288]⟩
        (rowsOut (shapeCast ⟨2, ![8192, 4096]⟩ x h0) (shapeCast ⟨2, ![1, 4096]⟩ g h1) (shapeCast ⟨2, ![1, 4096]⟩ o h1) w
          (shapeCast ⟨2, ![1, 12288]⟩ bias h2)) h3
      = result x w bias g o := by
  funext i
  obtain ⟨b, s, j, rfl⟩ : ∃ (b : Fin 4) (s : Fin 2048) (j : Fin 12288), i = ix3 b s j := ⟨i 0, i 1, i 2, eq_ix3 i⟩
  have hlt : b.val * 2048 + s.val < 8192 := by have := b.isLt; have := s.isLt; omega
  rw [shapeCast_splitRows_apply _ h3 b s ⟨b.val * 2048 + s.val, hlt⟩ j rfl, rowsOut_ix2, result_ix3]
  unfold rowsOutAt resultAt
  have e0 : (fun k => shapeCast ⟨2, ![8192, 4096]⟩ x h0 (ix2 (⟨b.val * 2048 + s.val, hlt⟩ : Fin 8192) k)) = fun k => x (ix3 b s k) :=
    funext fun k => shapeCast_mergeRows_apply x h0 b s ⟨b.val * 2048 + s.val, hlt⟩ k rfl
  have e1 : (fun k => shapeCast ⟨2, ![1, 4096]⟩ g h1 (ix2 (0 : Fin 1) k)) = fun k => g (ix1 k) :=
    funext fun k => shapeCast_a_1a_apply g h1 0 k
  have e2 : (fun k => shapeCast ⟨2, ![1, 4096]⟩ o h1 (ix2 (0 : Fin 1) k)) = fun k => o (ix1 k) :=
    funext fun k => shapeCast_a_1a_apply o h1 0 k
  have e3 : shapeCast ⟨2, ![1, 12288]⟩ bias h2 (ix2 (0 : Fin 1) j) = bias (ix1 j) := shapeCast_a_1a_apply bias h2 0 j
  rw [e0, e1, e2, e3]

end LnLinear

end
-- ==== Proof.KernelValue.lean ====
/-
  The kernel program's result as a function of its five arguments.

  The result buffer holds the last reshape of the second region's output array.  That array is the specification's
  `rowsOut` of what the region found: the flattened input, the gain, offset and bias as one-row matrices (the four
  reshapes before the regions, which the first region does not touch), and the first region's output, which is the
  weight.  Under the last reshape this is the specification's `result` of the arguments.
-/
import proofs.«167743_j73375221285154_2_alg».proof.Proof.KernelCastArray
import proofs.«167743_j73375221285154_2_alg».proof.Proof.KernelFusedArray
import proofs.«167743_j73375221285154_2_alg».proof.Proof.KernelRun
import proofs.«167743_j73375221285154_2_alg».proof.Proof.SpecReshape
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.StableHlo

namespace Cert.KernelIdeal.Result

open Cert.KernelIdeal Cert.KernelIdeal.Gen

variable (m : (ℓ : Loc nD τ sig) → Buf (Elt Ideal) ℓ) (ρ : Dev nD → PrngReg)

/-- The five arguments as launched, read as extended reals. -/
abbrev xArg (c : Dev nD) : S4x2048x4096.Idx → EReal := m ((c.tc : Thread nD τ).loc main_arg0)
abbrev wArg (c : Dev nD) : S12288x4096.Idx → EReal := m ((c.tc : Thread nD τ).loc main_arg1)
abbrev biasArg (c : Dev nD) : S12288.Idx → EReal := m ((c.tc : Thread nD τ).loc main_arg2)
abbrev gainArg (c : Dev nD) : S4096.Idx → EReal := m ((c.tc : Thread nD τ).loc main_arg3)
abbrev offsetArg (c : Dev nD) : S4096.Idx → EReal := m ((c.tc : Thread nD τ).loc main_arg4)

/-! ## What the second region finds -/

/-- The flattened input: written by the first reshape, untouched by the first region. -/
theorem rows_found (c : Dev nD) :
    Arrays.rowsIn (V2 m ρ) c = shapeCast S8192x4096 (xArg m c) shapeCasts_S4x2048x4096_S8192x4096 := by
  show W2 m ρ c (Proc.devRef .tc main_v0) = _
  rw [W2_of_ne m ρ c main_v0 (by decide)]
  show StableHlo.after hostOps0 (W0 m ρ c) (Proc.devRef .tc main_v0) = _
  after_results
  rfl

/-- The gain as a one-row matrix. -/
theorem gain_found (c : Dev nD) :
    Arrays.gainIn (V2 m ρ) c = shapeCast S1x4096 (gainArg m c) shapeCasts_S4096_S1x4096 := by
  show W2 m ρ c (Proc.devRef .tc main_v1) = _
  rw [W2_of_ne m ρ c main_v1 (by decide)]
  show StableHlo.after hostOps0 (W0 m ρ c) (Proc.devRef .tc main_v1) = _
  after_results
  rfl

/-- The offset as a one-row matrix. -/
theorem offset_found (c : Dev nD) :
    Arrays.offsetIn (V2 m ρ) c = shapeCast S1x4096 (offsetArg m c) shapeCasts_S4096_S1x4096 := by
  show W2 m ρ c (Proc.devRef .tc main_v2) = _
  rw [W2_of_ne m ρ c main_v2 (by decide)]
  show StableHlo.after hostOps0 (W0 m ρ c) (Proc.devRef .tc main_v2) = _
  after_results
  rfl

/-- The bias as a one-row matrix. -/
theorem bias_found (c : Dev nD) :
    Arrays.biasIn (V2 m ρ) c = shapeCast S1x12288 (biasArg m c) shapeCasts_S12288_S1x12288 := by
  show W2 m ρ c (Proc.devRef .tc main_v3) = _
  rw [W2_of_ne m ρ c main_v3 (by decide)]
  show StableHlo.after hostOps0 (W0 m ρ c) (Proc.devRef .tc main_v3) = _
  after_results
  rfl

/-- The first region's output is the weight as launched: no reshape writes the weight. -/
theorem weight_found (c : Dev nD) : Arrays.weightBf (V2 m ρ) c = wArg m c := by
  refine (W2_arr m ρ c 1).trans ((Arrays.cast_final (V1 m ρ) c).trans ?_)
  show StableHlo.after hostOps0 (W0 m ρ c) (Proc.devRef .tc main_arg1) = _
  after_results

/-! ## The result buffer -/

/-- The last boundary's contents at the result buffer are the specification's result of the arguments. -/
theorem result_eq (c : Dev nD) :
    (W4 m ρ c (Proc.devRef .tc main_v6) : S4x2048x12288.Idx → EReal)
      = LnLinear.result (xArg m c) (wArg m c) (biasArg m c) (gainArg m c) (offsetArg m c) := by
  have hlast : (W4 m ρ c (Proc.devRef .tc main_v6) : S4x2048x12288.Idx → EReal)
      = shapeCast S4x2048x12288 (W3 m ρ c (Proc.devRef .tc main_v5) : S8192x12288.Idx → EReal) shapeCasts_S8192x12288_S4x2048x12288 := by
    show StableHlo.after hostOps2 (W3 m ρ c) (Proc.devRef .tc main_v6) = _
    after_results
    rfl
  have hout : (W3 m ρ c (Proc.devRef .tc main_v5) : S8192x12288.Idx → EReal) = Arrays.fusedOut (V2 m ρ) c :=
    (W3_arr m ρ c 5).trans (Arrays.fused_final (V2 m ρ) c)
  rw [hlast, hout]
  show shapeCast S4x2048x12288 (LnLinear.rowsOut (Arrays.rowsIn (V2 m ρ) c) (Arrays.gainIn (V2 m ρ) c) (Arrays.offsetIn (V2 m ρ) c)
    (Arrays.weightBf (V2 m ρ) c) (Arrays.biasIn (V2 m ρ) c)) shapeCasts_S8192x12288_S4x2048x12288 = _
  rw [rows_found, gain_found, offset_found, bias_found, weight_found]
  exact LnLinear.reshape_rowsOut _ _ _ _ _ _ _ _ _

/-- The kernel program's run: the result buffer ends at the specification's result, the arguments as launched. -/
theorem kernel_run : θ_run defs (onTc (τ := τ) (main (F := Ideal))) ⟨m, fun _ => 0, ρ⟩ (fun r => ∀ c : Dev nD,
      r.2.mem ((c.tc : Thread nD τ).loc main_v6) = LnLinear.result (xArg m c) (wArg m c) (biasArg m c) (gainArg m c) (offsetArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Run.value_run m ρ)

end Cert.KernelIdeal.Result

end
-- ==== Proof.lean ====
/-
  The certificate of the fused layer-normalisation and linear kernel against its reference.

  Both programs compute, for every row (b, s) of the [4, 2048, 4096] input and every weight row j,
      (∑ₖ ((x − mean) · (1 / √(variance + ε)) · gain + offset)ₖ · wⱼₖ) + biasⱼ,
  with the mean and the variance taken over the row's 4096 entries.  The kernel does it in two regions — one changes
  the weight to a narrower float format, which is the identity on the extended reals; the other normalises blocks of
  256 rows and multiplies them with blocks of 1024 weight rows — between reshapes that flatten (b, s) to 2048·b + s and
  back.  The reference does it on the whole arrays.  On the extended reals the two results are the same function of
  the five arguments, entry by entry: the only differences are the tiling, the order of the operands' axes, and sums
  that start from a zero word.  No property of the inputs is used.

  The three frames are the generated ones (the reference's is its generated run with the result dropped); the
  idealisation rewrote nothing, so there is nothing to preserve.
-/
import proofs.«167743_j73375221285154_2_alg».proof.Defs
import proofs.«167743_j73375221285154_2_alg».proof.Proof.Gen.Kernel
import proofs.«167743_j73375221285154_2_alg».proof.Proof.Gen.Kernel.Skeleton
import proofs.«167743_j73375221285154_2_alg».proof.Proof.Gen.Kernel.Launch
import proofs.«167743_j73375221285154_2_alg».proof.Proof.Gen.Kernel.Points
import proofs.«167743_j73375221285154_2_alg».proof.Proof.Gen.Kernel.Frame
import proofs.«167743_j73375221285154_2_alg».proof.Proof.Gen.KernelIdeal
import proofs.«167743_j73375221285154_2_alg».proof.Proof.Gen.KernelIdeal.Skeleton
import proofs.«167743_j73375221285154_2_alg».proof.Proof.Gen.KernelIdeal.Launch
import proofs.«167743_j73375221285154_2_alg».proof.Proof.Gen.KernelIdeal.Points
import proofs.«167743_j73375221285154_2_alg».proof.Proof.Gen.KernelIdeal.Frame
import proofs.«167743_j73375221285154_2_alg».proof.Proof.Gen.ReferenceIdeal
import proofs.«167743_j73375221285154_2_alg».proof.Proof.Gen.Pre_finite_inputs
import proofs.«167743_j73375221285154_2_alg».proof.Proof.Gen.ReferenceIdeal.Run
import proofs.«167743_j73375221285154_2_alg».proof.Proof.Gen.ReferenceIdeal.Read
import proofs.«167743_j73375221285154_2_alg».proof.Proof.RefIsSpec
import proofs.«167743_j73375221285154_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the kernel program's result buffer ends at the specification's
    result of its arguments, and the reference's at its composed term, which is the specification's result of the
    same arguments. -/
theorem algebraic : Cert.algebraic_KernelIdeal_ReferenceIdeal := by
  intro m ρ m' ρ' _ hagree
  refine ⟨fun c => LnLinear.result (Cert.KernelIdeal.Result.xArg m c) (Cert.KernelIdeal.Result.wArg m c)
      (Cert.KernelIdeal.Result.biasArg m c) (Cert.KernelIdeal.Result.gainArg m c) (Cert.KernelIdeal.Result.offsetArg m c),
    Cert.KernelIdeal.Result.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v27_eq]
  exact Cert.ReferenceIdeal.RefValue.ref_is_spec _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
